-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S4096x128 : Shape := ⟨2, ![4096, 128]⟩

abbrev nBuf : Space → Nat
  | .hbm => 2
  | .vmem => 4
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x128_S4096x128_0_0 : ∀ a, (![0, 0] : Fin 2 → Nat) a + S4096x128.size a ≤ S4096x128.size a
  h_S4096x128 : 0 < S4096x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S16384x128 : Shape := ⟨2, ![16384, 128]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 9
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S16384x1, .i32⟩
  | .hbm, ⟨3, _⟩ => ⟨S1x16384, .i32⟩
  | .hbm, ⟨4, _⟩ => ⟨S16384x16384, .i32⟩
  | .hbm, ⟨5, _⟩ => ⟨S16384x16384, .i32⟩
  | .hbm, ⟨6, _⟩ => ⟨S16384x16384, .i1⟩
  | .hbm, ⟨7, _⟩ => ⟨S16384x16384, .f32⟩
  | .hbm, ⟨8, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  dot_S16384x16384_S16384x128_S16384x128_1_0_0_1_n_n_wf : DotDims.WF S16384x16384 S16384x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.CopyValue.lean ====
/-
  What the copy kernel leaves in its result array.

  The grid has four points. At point `t` the input window holds rows `4096 t … 4096 t + 4095` of the argument `W`
  (all 128 columns), the body loads that whole tile and stores it whole into the output window's buffer, and the
  output window writes it back to the same rows of the result array: both index maps send `t` to the block `(t, 0)`.
  So each point writes the tile of `W` that its block names, the four blocks tile the 16384 rows (row `r` lies in the
  block of point `r / 4096`), and the result array ends as `W` itself, entry by entry.
-/
import proofs.«178245_j3977139716495_2_alg».proof.Proof.Gen.KernelIdeal.Value
import Idealize.ShloMosaic.Lib.Pipeline.Value

set_option maxRecDepth 16384

noncomputable section

namespace Cert.KernelIdeal.CopyValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load and one store start at the tile's corner. -/
theorem corner : (![0, 0] : Fin 2 → Nat) = fun _ => 0 := funext fun a => by fin_cases a <;> rfl

/-- Input and output windows name the same block at every grid point, a block of row index at most 3 and column
    index 0 (decided over the four points). -/
theorem same_block : ∀ t : Fin cfg0.N, win0_0.index t (0 : Fin 2) = win0_1.index t (0 : Fin 2)
    ∧ win0_0.index t (1 : Fin 2) = win0_1.index t (1 : Fin 2)
    ∧ win0_1.index t (0 : Fin 2) ≤ 3
    ∧ win0_1.index t (1 : Fin 2) = 0 :=
  (by decide +kernel : ∀ t : Fin grid0.N, _)

/-- Each of the four row blocks is some grid point's. -/
theorem block_of_rows : ∀ q : Fin 4, ∃ t : Fin cfg0.N, win0_1.index t = ![q.val, 0] :=
  (by decide +kernel : ∀ q : Fin 4, ∃ t : Fin grid0.N, win0_1.index t = ![q.val, 0])

/-- Point `t` writes back the tile of the argument array that its output block names. -/
theorem written_tile (c : Dev nD) (t : Fin cfg0.N) :
    (dats m 0 c).flushed 1 t = ((cfg0.win 1).blk t).view.read (Elt F) (V m c main_arg0) := by
  rw [Cert.KernelIdeal.Value.flushed1]
  unfold out0_1
  rw [View.canon_unit_zero corner]
  simp only [View.ld_unit_zero (S := S4096x128) corner]
  obtain ⟨e0, e1, -, -⟩ := same_block t
  funext j
  show V m c main_arg0 (((cfg0.win 0).blk t).view.emb j) = V m c main_arg0 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 4096 + 1 * (j 0).val = win0_1.index t (0 : Fin 2) * 4096 + 1 * (j 0).val; omega
    | ⟨1, _⟩ => show win0_0.index t (1 : Fin 2) * 128 + 1 * (j 1).val = win0_1.index t (1 : Fin 2) * 128 + 1 * (j 1).val; omega
  rw [h0]

/-- An entry of the result array lies in point `t`'s block exactly when each coordinate lies in the block's range. -/
theorem mem_block (t : Fin cfg0.N) (i : S16384x128.Idx) :
    i ∈ ((cfg0.win 1).blk t).view.set ↔ ∀ a : Fin 2, win0_1.index t a * S4096x128.size a ≤ (i a).val ∧ (i a).val < win0_1.index t a * S4096x128.size a + S4096x128.size a := by
  show i ∈ ((View.whole main_v0).slice (win0_1.rect t)).set ↔ _
  rw [View.set_slice_whole, Rect.mem_set_unit]
  exact Iff.rfl

/-- The four blocks cover the result array: row `r` is in the block of the point with block row `r / 4096`. -/
theorem covered (i : S16384x128.Idx) :
    ∃ t : Fin cfg0.N, (cfg0.win 1).flush t = true ∧ i ∈ ((cfg0.win 1).blk t).view.set := by
  have hi0 : (i 0).val < 16384 := (i 0).isLt
  have hi1 : (i 1).val < 128 := (i 1).isLt
  obtain ⟨t, ht⟩ := block_of_rows ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 128 ≤ (i 1).val ∧ (i 1).val < win0_1.index t (1 : Fin 2) * 128 + 128; omega

/-- After the run the result array is the argument array as launched. -/
theorem result_array (c : Dev nD) :
    (dats m 0 c).arrAt 1 cfg0.N = m ((c : Thread nD τ).loc main_arg0) :=
  ((dats m 0 c).arrAt_eq_of_cover 1 (V m c main_arg0) (fun t _ => written_tile m c t) covered).trans (V_main_arg0 m c)

/-- Every weakly fair execution of the kernel program terminates with the result array equal to the argument array
    as launched, and the argument array unchanged. -/
theorem run : θ_run defs (onTc (τ := τ) (main (F := F))) ⟨m, fun _ => 0, ρ⟩ fun r => ∀ c : Dev nD,
      r.2.mem ((c : Thread nD τ).loc main_v0) = m ((c : Thread nD τ).loc main_arg0)
      ∧ r.2.mem ((c : Thread nD τ).loc main_arg0) = m ((c : Thread nD τ).loc main_arg0) :=
  (θ_run defs _ _).mono (fun r h c => ⟨(h c).1.trans (result_array m c), (h c).2⟩)
    (Cert.KernelIdeal.Value.run_blocks m ρ)

end Cert.KernelIdeal.CopyValue

end
-- ==== Proof.OneHot.lean ====
/-
  The identity matrix as a one-hot table, at the ideal values.

  A row of `one_hot (arange n) n` compares two counters, each printed as the 32-bit word of a natural number, and
  converts the comparison's one-bit answer to a float. At the ideal values that float is the real number 1 when the
  two counters are equal and 0 when they differ: two naturals below 2^32 have equal words exactly when they are equal.

  The product of such a row with a column `g` is therefore `g` at the row's own position: every other term of the
  sum is `0 * g k`, which is `0` for EVERY extended real `g k` (`0 * ⊤ = 0` and `0 * ⊥ = 0` there), and adding zeros
  changes nothing. No entry of `g` has to be finite.
-/
import Idealize.ShloMosaic.PureOps.Ideal

noncomputable section

namespace Cert.OneHot

open Idealize.ShloMosaic

/-- The converted comparison of two counters' words: 1 where the counters agree, 0 elsewhere. -/
theorem entry (p q : Nat) (hp : p < 2 ^ 32) (hq : q < 2 ^ 32) :
    (FloatOps.uitofp (F := Ideal) .f32 (IntOp.cmpi .eq (BitVec.ofNat 32 p) (BitVec.ofNat 32 q)) : EReal)
      = if p = q then 1 else 0 := by
  show (((BitVec.ofBool (BitVec.ofNat 32 p == BitVec.ofNat 32 q)).toNat : ℝ) : EReal) = _
  by_cases h : p = q
  · subst h
    rw [if_pos rfl, beq_self_eq_true]
    simp
  · have hne : (BitVec.ofNat 32 p == BitVec.ofNat 32 q) = false := by
      rw [beq_eq_false_iff_ne]
      intro e
      have e' := congrArg BitVec.toNat e
      rw [BitVec.toNat_ofNat, BitVec.toNat_ofNat, Nat.mod_eq_of_lt hp, Nat.mod_eq_of_lt hq] at e'
      exact h e'
    rw [if_neg h, hne]
    simp

/-- A one-hot row times a column picks the column's entry at the row's position, whatever extended reals the
    column holds. -/
theorem row_mul_col {n : Nat} (r : Fin n) (f g : Fin n → EReal)
    (hf : ∀ k : Fin n, f k = if r.val = k.val then 1 else 0) :
    ∑ k : Fin n, f k * g k = g r := by
  rw [Finset.sum_eq_single r]
  · rw [hf r, if_pos rfl, one_mul]
  · intro k _ hk
    rw [hf k, if_neg (fun e => hk (Fin.ext e.symm)), zero_mul]
  · intro h
    exact absurd (Finset.mem_univ r) h

end Cert.OneHot

end
-- ==== Proof.RefValue.lean ====
/-
  What the reference computes, at the ideal values.

  The reference multiplies the table `one_hot (arange 16384) 16384` by `W`. Entry `(r, k)` of that table compares the
  row counter `r` (a counter along axis 0, laid as a column and broadcast along the rows) with the column counter `k`
  (a counter along axis 1, broadcast down the columns) and converts the answer to a float: it is the identity matrix.
  Entry `(r, q)` of the product is the sum over `k` of that entry times `W (k, q)`, which is `W (r, q)`: the one term
  with `k = r` is `1 * W (r, q)` and all others are `0 * W (k, q) = 0`. So the reference's result is `W`.
-/
import proofs.«178245_j3977139716495_2_alg».proof.Proof.Gen.ReferenceIdeal.Read
import proofs.«178245_j3977139716495_2_alg».proof.Proof.OneHot

noncomputable section

namespace Cert.ReferenceIdeal.RefValue

open Cert.ReferenceIdeal Cert.ReferenceIdeal.Gen Cert.ReferenceIdeal.Read Idealize.ShloMosaic Idealize.ShloMosaic.TcCoe

/-- Entry `(r, k)` of the one-hot table, read through its six operations: the converted comparison of the words of
    the row counter `r` and of the column counter `k`. -/
theorem table_entry (j : S16384x16384.Idx) :
    val_main_v1 (F := Ideal) j
      = FloatOps.uitofp (F := Ideal) .f32 (IntOp.cmpi .eq (BitVec.ofNat 32 (j 0).val) (BitVec.ofNat 32 (j 1).val)) := by
  rw [val_main_v1_apply, val_main_call0_v4_apply, val_main_call0_v2_apply, val_main_call0_v0_apply, val_main_v0_apply,
    val_main_call0_v3_apply, val_main_call0_v1_apply]

/-- The reference's result is its argument array: the identity matrix times `W` is `W`, for any extended reals in `W`. -/
theorem result_eq (x0 : (⟨S16384x128, .f32⟩ : BufTy).Contents (Elt Ideal)) :
    val_main_v2 (F := Ideal) x0 = x0 := by
  funext i
  rw [val_main_v2_apply]
  have hrow := Cert.OneHot.row_mul_col (n := 16384) ⟨(i 0).val, (i 0).isLt⟩
    (fun k => val_main_v1 (F := Ideal) (lidx_main_v2 i k)) (fun k => x0 (ridx_main_v2 i k))
    (fun k => by
      rw [table_entry]
      exact Cert.OneHot.entry (i 0).val k.val (by have h : (i 0).val < 16384 := (i 0).isLt; omega) (by have h := k.isLt; omega))
  refine hrow.trans ?_
  exact congrArg x0 (funext fun a => Fin.ext (by
    match a with
    | ⟨0, _⟩ => rfl
    | ⟨1, _⟩ => rfl))

end Cert.ReferenceIdeal.RefValue

end
-- ==== Proof.lean ====
/-
  The proof of `Cert.Claim` for a tiled copy kernel against `one_hot (arange n) n @ W`, `W : f32[16384, 128]`.

  The kernel copies `W` tile by tile (four tiles of 4096 rows) into its result array, so the result array ends as
  `W` (Proof/CopyValue.lean). The reference builds the 16384 × 16384 identity matrix as a one-hot table and
  multiplies it by `W`; at the ideal values entry `(r, q)` of that product is the sum over `k` of `[k = r] * W (k, q)`,
  which is `W (r, q)` for any extended reals in `W`, because `0 * x = 0` and `1 * x = x` there and a sum of zeros
  and one term is that term (Proof/OneHot.lean, Proof/RefValue.lean). Both results are the argument itself, so they
  agree entry by entry; the finiteness of the inputs is not used.

  The three programs run to the end with their argument unchanged: the two kernel programs by their generated frame
  runs, the reference by its generated run with the result dropped. The idealization rewrote no operation, so there
  is nothing to preserve.
-/
import proofs.«178245_j3977139716495_2_alg».proof.Defs
import proofs.«178245_j3977139716495_2_alg».proof.Proof.Gen.Kernel
import proofs.«178245_j3977139716495_2_alg».proof.Proof.Gen.Kernel.Skeleton
import proofs.«178245_j3977139716495_2_alg».proof.Proof.Gen.Kernel.Launch
import proofs.«178245_j3977139716495_2_alg».proof.Proof.Gen.Kernel.Points
import proofs.«178245_j3977139716495_2_alg».proof.Proof.Gen.Kernel.Frame
import proofs.«178245_j3977139716495_2_alg».proof.Proof.Gen.KernelIdeal
import proofs.«178245_j3977139716495_2_alg».proof.Proof.Gen.KernelIdeal.Skeleton
import proofs.«178245_j3977139716495_2_alg».proof.Proof.Gen.KernelIdeal.Launch
import proofs.«178245_j3977139716495_2_alg».proof.Proof.Gen.KernelIdeal.Points
import proofs.«178245_j3977139716495_2_alg».proof.Proof.Gen.KernelIdeal.Frame
import proofs.«178245_j3977139716495_2_alg».proof.Proof.Gen.ReferenceIdeal
import proofs.«178245_j3977139716495_2_alg».proof.Proof.Gen.Pre_finite_inputs
import proofs.«178245_j3977139716495_2_alg».proof.Proof.Gen.KernelIdeal.Value
import proofs.«178245_j3977139716495_2_alg».proof.Proof.Gen.ReferenceIdeal.Run
import proofs.«178245_j3977139716495_2_alg».proof.Proof.Gen.ReferenceIdeal.Read
import proofs.«178245_j3977139716495_2_alg».proof.Proof.CopyValue
import proofs.«178245_j3977139716495_2_alg».proof.Proof.RefValue
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

/-- The kernel as printed runs to the end and leaves `W` as it was. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference runs to the end and leaves `W` as it was: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with their result array equal to `W` as the kernel was launched with it: the kernel because
    it copies `W`, the reference because the identity matrix times `W` is `W`, read from a memory that agrees on `W`. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    Cert.KernelIdeal.CopyValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq]
  exact hagree c

end Claims

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
